-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128 : Shape := ⟨3, ![32, 64, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S32x64x128 : S_.BroadcastsInDim S32x64x128 (![] : Fin 0 → Fin S32x64x128.rank)
  reducesTo_S32x64x128_S_d0_1_2 : S32x64x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x64x128 .f32) (main_arg1 : FVec F S256x128 .f32) (main_arg2 : FVec F S128 .f32) (main_arg3 : FVec F S128x128 .f32) (main_arg4 : FVec F S128 .f32) : IVec S_ 1 :=
  let main_v0 : FVec F S32x64x128 .f32 := Host.absf main_arg0
  let main_cst : FVec F S_ .f32 := constant S_ .f32 0x7F800000#32
  let main_v1 : FVec F S32x64x128 .f32 := broadcastInDim S32x64x128 ![] bcast_S_S32x64x128 main_cst
  let main_v2 : IVec S32x64x128 1 := cmpf .olt main_v0 main_v1
  let main_c : IVec S_ 1 := constantI S_ 1 1#1
  let main_v3 : IVec S_ 1 := (fun x v => Host.reduce IntOp.andi x v reducesTo_S32x64x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S32x64x128 : Shape := ⟨3, ![32, 64, 128]⟩
abbrev S256x128 : Shape := ⟨2, ![256, 128]⟩
abbrev S128 : Shape := ⟨1, ![128]⟩
abbrev S128x128 : Shape := ⟨2, ![128, 128]⟩
abbrev S32x4096x128 : Shape := ⟨3, ![32, 4096, 128]⟩
abbrev S2x64x128 : Shape := ⟨3, ![2, 64, 128]⟩
abbrev S2x4096x128 : Shape := ⟨3, ![2, 4096, 128]⟩
abbrev S1x64x128 : Shape := ⟨3, ![1, 64, 128]⟩
abbrev S64x128 : Shape := ⟨2, ![64, 128]⟩
abbrev S64x1x128 : Shape := ⟨3, ![64, 1, 128]⟩
abbrev S64x64x128 : Shape := ⟨3, ![64, 64, 128]⟩
abbrev S1x1x128 : Shape := ⟨3, ![1, 1, 128]⟩
abbrev S4096x128 : Shape := ⟨2, ![4096, 128]⟩
abbrev S1x128 : Shape := ⟨2, ![1, 128]⟩
abbrev S1x4096x128 : Shape := ⟨3, ![1, 4096, 128]⟩

abbrev nBuf : Space → Nat
  | .hbm => 11
  | .vmem => 9
  | .smem => 0
  | _ => 0

abbrev bufTy : (tb : Table) → Fin (tcTables nBuf tb) → BufTy
  | .hbm, ⟨0, _⟩ => ⟨S32x64x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .bf16⟩
  | .hbm, ⟨7, _⟩ => ⟨S128x128, .f32⟩
  | .hbm, ⟨8, _⟩ => ⟨S128x128, .bf16⟩
  | .hbm, ⟨9, _⟩ => ⟨S128x128, .bf16⟩
  | .hbm, ⟨10, _⟩ => ⟨S32x4096x128, .f32⟩
  | .local _ .vmem, ⟨0, _⟩ => ⟨S2x64x128, .f32⟩
  | .local _ .vmem, ⟨1, _⟩ => ⟨S2x64x128, .f32⟩
  | .local _ .vmem, ⟨2, _⟩ => ⟨S128x128, .bf16⟩
  | .local _ .vmem, ⟨3, _⟩ => ⟨S128x128, .bf16⟩
  | .local _ .vmem, ⟨4, _⟩ => ⟨S128, .f32⟩
  | .local _ .vmem, ⟨5, _⟩ => ⟨S128x128, .bf16⟩
  | .local _ .vmem, ⟨6, _⟩ => ⟨S128, .f32⟩
  | .local _ .vmem, ⟨7, _⟩ => ⟨S2x4096x128, .f32⟩
  | .local _ .vmem, ⟨8, _⟩ => ⟨S2x4096x128, .f32⟩
  | _, _ => ⟨S32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S256x128_S128x128_0_0 : S256x128.Slices ![0, 0] S128x128
  bitsLt_bf16_f32 : FTy.bits .bf16 < FTy.bits .f32
  slices_S256x128_S128x128_128_0 : S256x128.Slices ![128, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S2x64x128_S1x64x128_0_0_0 : ∀ a, (![0, 0, 0] : Fin 3 → Nat) a + S1x64x128.size a ≤ S2x64x128.size a
  h_S1x64x128 : 0 < S1x64x128.numel
  shapeCasts_S1x64x128_S64x128 : S1x64x128.ShapeCasts S64x128
  shapeCasts_S64x128_S64x1x128 : S64x128.ShapeCasts S64x1x128
  shapeCasts_S64x128_S1x64x128 : S64x128.ShapeCasts S1x64x128
  broadcasts_S64x1x128_S64x64x128 : S64x1x128.Broadcasts S64x64x128
  broadcasts_S1x64x128_S64x64x128 : S1x64x128.Broadcasts S64x64x128
  shapeCasts_S128_S1x1x128 : S128.ShapeCasts S1x1x128
  broadcasts_S1x1x128_S64x64x128 : S1x1x128.Broadcasts S64x64x128
  shapeCasts_S64x64x128_S4096x128 : S64x64x128.ShapeCasts S4096x128
  shapeCasts_S128_S1x128 : S128.ShapeCasts S1x128
  broadcasts_S1x128_S4096x128 : S1x128.Broadcasts S4096x128
  shapeCasts_S4096x128_S64x64x128 : S4096x128.ShapeCasts S64x64x128
  transposes_S64x64x128_p1_0_2_S64x64x128 : S64x64x128.Transposes [1, 0, 2] S64x64x128
  inb_S2x4096x128_S1x4096x128_0_0_0 : ∀ a, (![0, 0, 0] : Fin 3 → Nat) a + S1x4096x128.size a ≤ S2x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  inb_S2x64x128_S1x64x128_1_0_0 : ∀ a, (![1, 0, 0] : Fin 3 → Nat) a + S1x64x128.size a ≤ S2x64x128.size a
  inb_S2x4096x128_S1x4096x128_1_0_0 : ∀ a, (![1, 0, 0] : Fin 3 → Nat) a + S1x4096x128.size a ≤ S2x4096x128.size a
  dot_S64x128_S128x128_S64x128_1_0_0_1_n_n_wf : DotDims.WF S64x128 S128x128 S64x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x128.size a ≤ S32x64x128.size a
  hwx0_0 : ∀ i : grid0.Coords, EltTy.bits .f32 = 32 ∨ (Rect.block (s := S32x64x128) S2x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x4096x128.size a ≤ S32x4096x128.size a
  hwx0_6 : ∀ i : grid0.Coords, EltTy.bits .f32 = 32 ∨ (Rect.block (s := S32x4096x128) S2x4096x128.size (cc0_transform_6 i) (hinb0_6 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S2x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2x4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x64x128 : Shape := ⟨3, ![32, 64, 128]⟩
abbrev S256x128 : Shape := ⟨2, ![256, 128]⟩
abbrev S128 : Shape := ⟨1, ![128]⟩
abbrev S128x128 : Shape := ⟨2, ![128, 128]⟩
abbrev S32x64x1x128 : Shape := ⟨4, ![32, 64, 1, 128]⟩
abbrev S32x64x64x128 : Shape := ⟨4, ![32, 64, 64, 128]⟩
abbrev S32x1x64x128 : Shape := ⟨4, ![32, 1, 64, 128]⟩
abbrev S32x64x64x256 : Shape := ⟨4, ![32, 64, 64, 256]⟩
abbrev S131072x256 : Shape := ⟨2, ![131072, 256]⟩
abbrev S131072x128 : Shape := ⟨2, ![131072, 128]⟩
abbrev S1x128 : Shape := ⟨2, ![1, 128]⟩
abbrev S_ : Shape := ⟨0, ![]⟩
abbrev S32x4096x128 : Shape := ⟨3, ![32, 4096, 128]⟩

abbrev nBuf : Space → Nat
  | .hbm => 44
  | .vmem => 0
  | .smem => 0
  | _ => 0

abbrev bufTy : (tb : Table) → Fin (tcTables nBuf tb) → BufTy
  | .hbm, ⟨0, _⟩ => ⟨S32x64x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S32x64x1x128, .f32⟩
  | .hbm, ⟨6, _⟩ => ⟨S32x64x64x128, .f32⟩
  | .hbm, ⟨7, _⟩ => ⟨S32x1x64x128, .f32⟩
  | .hbm, ⟨8, _⟩ => ⟨S32x64x64x128, .f32⟩
  | .hbm, ⟨9, _⟩ => ⟨S32x64x64x256, .f32⟩
  | .hbm, ⟨10, _⟩ => ⟨S131072x256, .f32⟩
  | .hbm, ⟨11, _⟩ => ⟨S32x64x64x256, .f32⟩
  | .hbm, ⟨12, _⟩ => ⟨S131072x256, .f32⟩
  | .hbm, ⟨13, _⟩ => ⟨S131072x128, .f32⟩
  | .hbm, ⟨14, _⟩ => ⟨S1x128, .f32⟩
  | .hbm, ⟨15, _⟩ => ⟨S131072x128, .f32⟩
  | .hbm, ⟨16, _⟩ => ⟨S131072x128, .f32⟩
  | .hbm, ⟨17, _⟩ => ⟨S_, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S1x128, .f32⟩
  | .hbm, ⟨22, _⟩ => ⟨S131072x128, .f32⟩
  | .hbm, ⟨23, _⟩ => ⟨S131072x128, .f32⟩
  | .hbm, ⟨24, _⟩ => ⟨S_, .f32⟩
  | .hbm, ⟨25, _⟩ => ⟨S131072x128, .f32⟩
  | .hbm, ⟨26, _⟩ => ⟨S131072x128, .f32⟩
  | .hbm, ⟨27, _⟩ => ⟨S32x4096x128, .f32⟩
  | .hbm, ⟨28, _⟩ => ⟨S131072x128, .f32⟩
  | .hbm, ⟨29, _⟩ => ⟨S1x128, .f32⟩
  | .hbm, ⟨30, _⟩ => ⟨S131072x128, .f32⟩
  | .hbm, ⟨31, _⟩ => ⟨S131072x128, .f32⟩
  | .hbm, ⟨32, _⟩ => ⟨S_, .f32⟩
  | .hbm, ⟨33, _⟩ => ⟨S131072x128, .f32⟩
  | .hbm, ⟨34, _⟩ => ⟨S131072x128, .f32⟩
  | .hbm, ⟨35, _⟩ => ⟨S131072x128, .f32⟩
  | .hbm, ⟨36, _⟩ => ⟨S1x128, .f32⟩
  | .hbm, ⟨37, _⟩ => ⟨S131072x128, .f32⟩
  | .hbm, ⟨38, _⟩ => ⟨S131072x128, .f32⟩
  | .hbm, ⟨39, _⟩ => ⟨S_, .f32⟩
  | .hbm, ⟨40, _⟩ => ⟨S131072x128, .f32⟩
  | .hbm, ⟨41, _⟩ => ⟨S131072x128, .f32⟩
  | .hbm, ⟨42, _⟩ => ⟨S32x4096x128, .f32⟩
  | .hbm, ⟨43, _⟩ => ⟨S32x4096x128, .f32⟩
  | _, _ => ⟨S32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_cst : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call2_cst : Ref sig .tc := ⟨.hbm, 32, rfl⟩
abbrev main_call2_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call3_cst : Ref sig .tc := ⟨.hbm, 39, rfl⟩
abbrev main_call3_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S32x64x128_S32x64x1x128_0_1_3 : S32x64x128.BroadcastsInDim S32x64x1x128 (![0, 1, 3] : Fin 3 → Fin S32x64x1x128.rank)
  bcast_S32x64x1x128_S32x64x64x128_0_1_2_3 : S32x64x1x128.BroadcastsInDim S32x64x64x128 (![0, 1, 2, 3] : Fin 4 → Fin S32x64x64x128.rank)
  bcast_S32x64x128_S32x1x64x128_0_2_3 : S32x64x128.BroadcastsInDim S32x1x64x128 (![0, 2, 3] : Fin 3 → Fin S32x1x64x128.rank)
  bcast_S32x1x64x128_S32x64x64x128_0_1_2_3 : S32x1x64x128.BroadcastsInDim S32x64x64x128 (![0, 1, 2, 3] : Fin 4 → Fin S32x64x64x128.rank)
  concatenates_S32x64x64x128_S32x64x64x128_S32x64x64x256_d3 : Shape.Concatenates [S32x64x64x128, S32x64x64x128] S32x64x64x256 3
  shapeCasts_S32x64x64x256_S131072x256 : S32x64x64x256.ShapeCasts S131072x256
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  shapeCasts_S131072x128_S32x4096x128 : S131072x128.ShapeCasts S32x4096x128
  dot_S131072x256_S256x128_S131072x128_1_0_0_1_n_n_wf : DotDims.WF S131072x256 S256x128 S131072x128 [1] [0] [0] [1] [] []
  dot_S131072x128_S128x128_S131072x128_1_0_0_1_n_n_wf : DotDims.WF S131072x128 S128x128 S131072x128 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The pair network as one function of its argument arrays.

  For a sample's 64 atoms with 128 features each, every ordered pair (i, j) of atoms is run through a
  two-layer perceptron on the concatenated features [x_i, x_j]. The first layer is linear in that
  concatenation, so its product with the stacked [256, 128] weight is the sum of a product of x_i with the
  weight's top half and a product of x_j with its bottom half; then a bias and a maximum with zero. The
  second layer is a [128, 128] product, a bias and a maximum with zero. The result at pair (i, j) is the
  sum of the network at (i, j) and at the swapped pair (j, i); the 4096 pairs of a sample are laid out
  row-major, pair (i, j) at row i * 64 + j.

  The one law needed to compare two arrangements of the first layer is that a sum over 256 terms is the
  sum over its first 128 terms plus the sum over its last 128 terms, true in every commutative monoid, so
  in particular on the extended reals with no finiteness assumed.
-/
import Idealize.ShloMosaic.PureOps.Ideal
import Idealize.ShloMosaic.Lib.ValueIdx
import Mathlib.Algebra.BigOperators.Fin

noncomputable section

namespace Cert.PairNet

open Idealize.ShloMosaic Idealize.ShloMosaic.ValueIdx

/-- The float zero both layers take their maximum with. -/
abbrev zero32 : EReal := Ideal.ofBits .f32 0x00000000#32

/-- First layer at pair (i, j), channel c: x_i times the top weight half, plus x_j times the bottom half,
    plus the bias, clipped below at zero. -/
def layer0 (xs : Fin 64 → Fin 128 → EReal) (wa wb : Fin 128 → Fin 128 → EReal) (b0 : Fin 128 → EReal)
    (i j : Fin 64) (c : Fin 128) : EReal :=
  max ((∑ k : Fin 128, xs i k * wa k c) + (∑ k : Fin 128, xs j k * wb k c) + b0 c) zero32

/-- The two-layer network at pair (i, j), channel c. -/
def net (xs : Fin 64 → Fin 128 → EReal) (wa wb w1 : Fin 128 → Fin 128 → EReal) (b0 b1 : Fin 128 → EReal)
    (i j : Fin 64) (c : Fin 128) : EReal :=
  max ((∑ d : Fin 128, layer0 xs wa wb b0 i j d * w1 d c) + b1 c) zero32

/-- The first atom of the pair at row r = i * 64 + j. -/
def rowHi (r : Fin 4096) : Fin 64 := ⟨r.val / 64, by have := r.isLt; omega⟩
/-- The second atom of the pair at row r = i * 64 + j. -/
def rowLo (r : Fin 4096) : Fin 64 := ⟨r.val % 64, by omega⟩

/-- One sample's output at row r (pair (i, j)), channel c: the network at (i, j) plus the network at (j, i). -/
def sample (xs : Fin 64 → Fin 128 → EReal) (wa wb w1 : Fin 128 → Fin 128 → EReal) (b0 b1 : Fin 128 → EReal)
    (r : Fin 4096) (c : Fin 128) : EReal :=
  net xs wa wb w1 b0 b1 (rowHi r) (rowLo r) c + net xs wa wb w1 b0 b1 (rowLo r) (rowHi r) c

/-- Row k of the top half of a 256-row matrix. -/
def topRow (k : Fin 128) : Fin 256 := ⟨k.val, by have := k.isLt; omega⟩
/-- Row k of the bottom half of a 256-row matrix. -/
def botRow (k : Fin 128) : Fin 256 := ⟨128 + k.val, by have := k.isLt; omega⟩

/-- The whole output at (sample b, row r, channel c) from the five argument arrays. -/
def outAt (x : (⟨3, ![32, 64, 128]⟩ : Shape).Idx → EReal) (W0 : (⟨2, ![256, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (b : Fin 32) (r : Fin 4096) (c : Fin 128) : EReal :=
  sample (fun i k => x (ix3 b i k)) (fun k d => W0 (ix2 (topRow k) d)) (fun k d => W0 (ix2 (botRow k) d))
    (fun k d => W1 (ix2 k d)) (fun d => b0 (ix1 d)) (fun d => b1 (ix1 d)) r c

/-- The output array. -/
def out (x : (⟨3, ![32, 64, 128]⟩ : Shape).Idx → EReal) (W0 : (⟨2, ![256, 128]⟩ : Shape).Idx → EReal)
    (b0 : (⟨1, ![128]⟩ : Shape).Idx → EReal) (W1 : (⟨2, ![128, 128]⟩ : Shape).Idx → EReal)
    (b1 : (⟨1, ![128]⟩ : Shape).Idx → EReal) : (⟨3, ![32, 4096, 128]⟩ : Shape).Idx → EReal :=
  fun y => outAt x W0 b0 W1 b1 (y 0) (y 1) (y 2)

theorem out_ix3 (x : (⟨3, ![32, 64, 128]⟩ : Shape).Idx → EReal) (W0 : (⟨2, ![256, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (b : Fin 32) (r : Fin 4096) (c : Fin 128) :
    out x W0 b0 W1 b1 (ix3 b r c) = outAt x W0 b0 W1 b1 b r c := rfl

/-- A sum over 256 terms is the sum over its first 128 plus the sum over its last 128. -/
theorem sum_halves (f : Fin 256 → EReal) :
    ∑ k : Fin 256, f k = (∑ k : Fin 128, f (topRow k)) + ∑ k : Fin 128, f (botRow k) :=
  Fin.sum_univ_add (a := 128) (b := 128) f

end Cert.PairNet

end
-- ==== Proof.LibRank3Layout.lean ====
/-
  Three layout operations of rank three read at an index given by coordinates.

  A matrix `[a, b]` viewed as `[a, b, 1]` (a trailing unit axis added by a shape cast) keeps its row-major
  position, so entry `(i, j, 0)` of the view is entry `(i, j)` of the matrix. A broadcast never moves a
  coordinate: it reads the operand at the same coordinate on every axis the operand really has, and at `0` on
  an axis of extent one. So `[a, b, 1]` broadcast to `[a, b, c]` forgets the last coordinate, and
  `[1, b, c]` broadcast to `[a, b, c]` forgets the first.

  Together: `x[:, :, None]` stretched along a new last axis reads `x (i, j)` at `(i, j, k)`, and
  `w[None, :, :]` stretched along a new first axis reads `w (j, k)` at `(p, j, k)`.
-/
import Idealize.ShloMosaic.Lib.ValueLayout

namespace Cert.Rank3Layout

open Idealize.ShloMosaic Idealize.ShloMosaic.ValueIdx

variable {α : Type}

/-- An `[a, b]` array cast to `[a, b, 1]` reads, at `(i, j, u)`, the operand at `(i, j)`, whatever the unit
    coordinate `u`: both sit at row-major position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the last
    axis has extent one in the operand, the other two are read where they are. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(p, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ =>
    show (0 : ℕ) = if (1 : ℕ) = 1 then 0 else p.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- The column view of a matrix stretched along a new last axis: `x[:, :, None]` broadcast to `[a, b, c]` reads
    `x (i, j)` at `(i, j, k)`. -/
theorem column_stretch_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The slab view of a matrix stretched along a new first axis: `w[None, :, :]` broadcast to `[a, b, c]` reads
    `w (j, k)` at `(p, j, k)`. -/
theorem slab_stretch_apply {a b c : ℕ} (w : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (p : Fin a) (j : Fin b) (k : Fin c) :
    broadcastTo ⟨3, ![a, b, c]⟩ (shapeCast ⟨3, ![1, b, c]⟩ w hc) hb (ix3 p j k) = w (ix2 j k) :=
  (broadcastTo_1bc_abc_apply _ hb p j k).trans (shapeCast_ab_1ab_apply w hc 0 j k)

end Cert.Rank3Layout
-- ==== Proof.LibUnitAxisLayout.lean ====
/-
  Layout operations of rank-3 arrays with unit axes, read at an index given by coordinates.

  A value that depends on fewer coordinates than the array it is combined with is carried as an
  array with unit axes and broadcast: a per-sample scalar as [a, 1, 1], a per-lane row as [1, 1, c],
  a per-sample row of lanes as [a, 1, c], each broadcast to [a, b, c]. Reading the broadcast at
  (p, q, r) reads the operand at the coordinates it has, and 0 on its unit axes. The casts that
  insert the middle unit axis, and the slice that picks one entry (k1, k2) of every sample's small
  matrix as an [a, 1, 1] column, are read the same way. Every lemma is the general statement of the
  operation at an index with the two indices written out coordinate by coordinate.
-/
import Idealize.ShloMosaic.Lib.Pipeline.Value
import Idealize.ShloMosaic.Lib.ValueIdx

namespace Idealize.ShloMosaic.UnitAxisLayout

open Idealize.ShloMosaic Idealize.ShloMosaic.ValueIdx

variable {α : Type}

/-! ## Broadcasts to [a, b, c] -/

/-- An [a, 1, 1] column broadcast to [a, b, c] reads, at (p, q, r), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row broadcast to [a, b, c] reads, at (p, q, r), the row's entry r. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, 1, c] slab broadcast to [a, b, c] reads, at (p, q, r), the slab's entry (p, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## The cast that inserts a middle unit axis -/

/-- An [a, c] matrix cast to [a, 1, c] reads, at (p, u, r), the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## One entry of every sample's small matrix, as a column -/

/-- The unit-size slice of an [a, n1, n2] array at offsets (0, o1, o2) is the [a, 1, 1] column of the
    entries (k1, k2) = (o1, o2): at (p, 0, 0) it reads the array at (p, k1, k2). -/
theorem slice_entry_apply {a n1 n2 : ℕ} (o1 o2 : ℕ) (x : (⟨3, ![a, n1, n2]⟩ : Shape).Idx → α)
    (h : (⟨3, ![a, n1, n2]⟩ : Shape).Slices ![0, o1, o2] ⟨3, ![a, 1, 1]⟩) (p : Fin a) (u v : Fin 1)
    (k1 : Fin n1) (k2 : Fin n2) (hk1 : k1.val = o1) (hk2 : k2.val = o2) :
    extractStridedSlice ⟨3, ![a, 1, 1]⟩ ![0, o1, o2] x h (ix3 p u v) = x (ix3 p k1 k2) := by
  refine extractStridedSlice_apply ![0, o1, o2] x h (ix3 p u v) (ix3 p k1 k2) fun ax => ?_
  have hu : u.val = 0 := by omega
  have hv : v.val = 0 := by omega
  match ax with
  | ⟨0, _⟩ => show p.val = 0 + p.val; omega
  | ⟨1, _⟩ => show k1.val = o1 + u.val; omega
  | ⟨2, _⟩ => show k2.val = o2 + v.val; omega

/-- The same entry carried through the flattening [a, 1, 1] → [a] → [a, 1, 1] and broadcast to
    [a, b, c]: at (p, q, r) it is the array's entry (p, k1, k2). -/
theorem broadcast_entry_apply {a n1 n2 b c : ℕ} (o1 o2 : ℕ) (x : (⟨3, ![a, n1, n2]⟩ : Shape).Idx → α)
    (hs : (⟨3, ![a, n1, n2]⟩ : Shape).Slices ![0, o1, o2] ⟨3, ![a, 1, 1]⟩)
    (h1 : (⟨3, ![a, 1, 1]⟩ : Shape).ShapeCasts ⟨1, ![a]⟩) (h2 : (⟨1, ![a]⟩ : Shape).ShapeCasts ⟨3, ![a, 1, 1]⟩)
    (hb : (⟨3, ![a, 1, 1]⟩ : Shape).Broadcasts ⟨3, ![a, b, c]⟩) (p : Fin a) (q : Fin b) (r : Fin c)
    (k1 : Fin n1) (k2 : Fin n2) (hk1 : k1.val = o1) (hk2 : k2.val = o2) :
    broadcastTo ⟨3, ![a, b, c]⟩
        (shapeCast ⟨3, ![a, 1, 1]⟩ (shapeCast ⟨1, ![a]⟩ (extractStridedSlice ⟨3, ![a, 1, 1]⟩ ![0, o1, o2] x hs) h1) h2) hb
        (ix3 p q r)
      = x (ix3 p k1 k2) := by
  rw [broadcastTo_a11_abc_apply, shapeCast_shapeCast]
  exact slice_entry_apply o1 o2 x hs p 0 0 k1 k2 hk1 hk2

end Idealize.ShloMosaic.UnitAxisLayout
-- ==== Proof.BodyLayout.lean ====
/-
  What one sample's half of the kernel body computes, entry by entry.

  The body takes one sample's [1, 64, 128] block of atoms, the two [128, 128] halves of the first weight, the
  second [128, 128] weight and the two biases. It forms A = x · Wa and B = x · Wb (each [64, 128]), lays
  A[i] + B[j] + b0 out over all pairs (i, j) as a [64, 64, 128] array, clips at zero, flattens the pairs to
  4096 rows, multiplies by W1, adds b1 and clips again; then it adds to that [64, 64, 128] result its own
  transpose in the two pair axes, and flattens again. Read at row r = i * 64 + j and channel c this is the
  network at (i, j) plus the network at (j, i). Every layout step (casts that add or drop a unit axis,
  broadcasts along a unit axis, the flattening of the pair axes and its inverse, the transpose) only
  renames coordinates; the two matrix products are plain sums over the contracted axis.
-/
import proofs.«146400_j10505490006485_2_alg».proof.Proof.Gen.KernelIdeal.Skeleton
import proofs.«146400_j10505490006485_2_alg».proof.Proof.Spec
import proofs.«146400_j10505490006485_2_alg».proof.Proof.LibRank3Layout
import proofs.«146400_j10505490006485_2_alg».proof.Proof.LibUnitAxisLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.PairNet

variable {α : Type}

/-! ## Rows and pairs -/

/-- The row of pair (i, j). -/
def pairRow (i j : Fin 64) : Fin 4096 := ⟨i.val * 64 + j.val, by have := i.isLt; have := j.isLt; omega⟩

theorem rowHi_pairRow (i j : Fin 64) : rowHi (pairRow i j) = i :=
  Fin.ext (by show (i.val * 64 + j.val) / 64 = i.val; have := j.isLt; omega)

theorem rowLo_pairRow (i j : Fin 64) : rowLo (pairRow i j) = j :=
  Fin.ext (by show (i.val * 64 + j.val) % 64 = j.val; have := j.isLt; omega)

/-! ## The layout steps, each read at coordinates -/

/-- The pair axes flattened: row r of the [4096, 128] view is pair (r / 64, r % 64). -/
theorem flatten_pairs_apply (x : S64x64x128.Idx → α) (h : S64x64x128.ShapeCasts S4096x128) (r : Fin 4096) (c : Fin 128) :
    shapeCast S4096x128 x h (ix2 r c) = x (ix3 (rowHi r) (rowLo r) c) :=
  shapeCast_apply x h _ _ (by
    rw [Shape.rowMajor_val_three, Shape.rowMajor_val_two]
    show (r.val / 64 * 64 + r.val % 64) * 128 + c.val = r.val * 128 + c.val
    omega)

/-- The rows unflattened: pair (i, j) of the [64, 64, 128] view is row i * 64 + j. -/
theorem unflatten_pairs_apply (x : S4096x128.Idx → α) (h : S4096x128.ShapeCasts S64x64x128) (i j : Fin 64) (c : Fin 128) :
    shapeCast S64x64x128 x h (ix3 i j c) = x (ix2 (pairRow i j) c) :=
  shapeCast_apply x h _ _ (by
    rw [Shape.rowMajor_val_three, Shape.rowMajor_val_two]
    rfl)

/-- The two pair axes exchanged. -/
theorem swap_pairs_apply (x : S64x64x128.Idx → α) (h : S64x64x128.Transposes [1, 0, 2] S64x64x128) (i j : Fin 64) (c : Fin 128) :
    transpose S64x64x128 [1, 0, 2] x h (ix3 i j c) = x (ix3 j i c) :=
  transpose_apply _ x h _ _ fun b => match b with | ⟨0, _⟩ => rfl | ⟨1, _⟩ => rfl | ⟨2, _⟩ => rfl

/-- A [128] vector viewed as [1, 1, 128]. -/
theorem lane_row_apply (x : S128.Idx → α) (h : S128.ShapeCasts S1x1x128) (u v : Fin 1) (c : Fin 128) :
    shapeCast S1x1x128 x h (ix3 u v c) = x (ix1 c) :=
  shapeCast_apply x h _ _ (by
    have hu : u.val = 0 := by omega
    have hv : v.val = 0 := by omega
    rw [Shape.rowMajor_val_three, Shape.rowMajor_val_one]
    show c.val = (u.val * 1 + v.val) * 128 + c.val
    omega)

/-- A sample's [1, 64, 128] block as a [64, 128] matrix. -/
theorem block_rows_apply (x : S1x64x128.Idx → α) (h : S1x64x128.ShapeCasts S64x128) (i : Fin 64) (k : Fin 128) :
    shapeCast S64x128 x h (ix2 i k) = x (ix3 (0 : Fin 1) i k) :=
  shapeCast_1ab_ab_apply x h i k

/-- A[i] laid over every second atom j. -/
theorem over_second_apply (a : S64x128.Idx → α) (h1 : S64x128.ShapeCasts S64x1x128) (h2 : S64x1x128.Broadcasts S64x64x128)
    (i j : Fin 64) (c : Fin 128) :
    broadcastTo S64x64x128 (shapeCast S64x1x128 a h1) h2 (ix3 i j c) = a (ix2 i c) :=
  (UnitAxisLayout.broadcastTo_a1c_abc_apply _ h2 i j c).trans (UnitAxisLayout.shapeCast_ac_a1c_apply a h1 i 0 c)

/-- B[j] laid over every first atom i. -/
theorem over_first_apply (b : S64x128.Idx → α) (h1 : S64x128.ShapeCasts S1x64x128) (h2 : S1x64x128.Broadcasts S64x64x128)
    (i j : Fin 64) (c : Fin 128) :
    broadcastTo S64x64x128 (shapeCast S1x64x128 b h1) h2 (ix3 i j c) = b (ix2 j c) :=
  Cert.Rank3Layout.slab_stretch_apply b h1 h2 i j c

/-- The first bias laid over every pair. -/
theorem over_pairs_apply (v : S128.Idx → α) (h1 : S128.ShapeCasts S1x1x128) (h2 : S1x1x128.Broadcasts S64x64x128)
    (i j : Fin 64) (c : Fin 128) :
    broadcastTo S64x64x128 (shapeCast S1x1x128 v h1) h2 (ix3 i j c) = v (ix1 c) :=
  (UnitAxisLayout.broadcastTo_11c_abc_apply _ h2 i j c).trans (lane_row_apply v h1 0 0 c)

/-- The second bias laid over every row. -/
theorem over_rows_apply (v : S128.Idx → α) (h1 : S128.ShapeCasts S1x128) (h2 : S1x128.Broadcasts S4096x128)
    (r : Fin 4096) (c : Fin 128) :
    broadcastTo S4096x128 (shapeCast S1x128 v h1) h2 (ix2 r c) = v (ix1 c) :=
  (broadcastTo_1b_ab_apply _ h2 r c).trans (shapeCast_a_1a_apply v h1 0 c)

/-- The [4096, 128] result given its leading unit axis. -/
theorem add_unit_apply (x : S4096x128.Idx → α) (h : S4096x128.ShapeCasts S1x4096x128) (u : Fin 1) (r : Fin 4096) (c : Fin 128) :
    shapeCast S1x4096x128 x h (ix3 u r c) = x (ix2 r c) :=
  shapeCast_ab_1ab_apply x h u r c

end Cert.KernelIdeal.BodyValue

end
-- ==== Proof.BodyValue.lean ====
/-
  One sample's half of the kernel body is the pair network.

  The two products of the sample's atoms with the halves of the first weight, and the product of the 4096
  clipped first-layer rows with the second weight, are sums over the 128 contracted coordinates. Put through
  the layout steps of the body they give, at row r = i * 64 + j and channel c, the network at (i, j) plus the
  network at (j, i).
-/
import proofs.«146400_j10505490006485_2_alg».proof.Proof.BodyLayout

noncomputable section

namespace Cert.KernelIdeal.BodyValue

open Cert.KernelIdeal Cert.KernelIdeal.Gen Idealize.ShloMosaic Idealize.ShloMosaic.ValueIdx Cert.PairNet

/-! ## The matrix products as sums -/

/-- A sample's atoms times a [128, 128] weight: entry (i, c) is the sum over the 128 features k of x (i, k) · w (k, c). -/
theorem atoms_product_apply (a : FVec Ideal S64x128 .bf16) (w : FVec Ideal S128x128 .bf16) (i : Fin 64) (c : Fin 128) :
    matmul dot_S64x128_S128x128_S64x128_1_0_0_1_n_n none a w (constant S64x128 .f32 0x00000000#32) (ix2 i c)
      = ∑ k : Fin 128, a (ix2 i k) * w (ix2 k c) := by
  show FloatOps.matmul dot_S64x128_S128x128_S64x128_1_0_0_1_n_n none a w (constant S64x128 .f32 0x00000000#32) (ix2 i c) = _
  rw [Ideal.matmul_constant_zero_apply, ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 i c) ((contrEquiv1 dot_S64x128_S128x128_S64x128_1_0_0_1_n_n 128 rfl rfl).symm k) = ix2 i k :=
    funext fun ax => Fin.ext (by
      match ax with
      | ⟨0, _⟩ =>
        show (dot_S64x128_S128x128_S64x128_1_0_0_1_n_n.lhsIdx (ix2 i c) _ 0).val = i.val
        unfold DotDims.lhsIdx
        rw [dif_neg (show ¬(0 : Fin S64x128.rank) ∈ dot_S64x128_S128x128_S64x128_1_0_0_1_n_n.lhsBatch by decide),
          dif_pos (show (0 : Fin S64x128.rank) ∈ dot_S64x128_S128x128_S64x128_1_0_0_1_n_n.lhsNonContracting by decide)]
        rfl
      | ⟨1, _⟩ => exact (dot_S64x128_S128x128_S64x128_1_0_0_1_n_n.lhsIdx_val_of_single rfl (ix2 i c) _).trans hk)
  have er : dot_S64x128_S128x128_S64x128_1_0_0_1_n_n.rhsIdx (ix2 i c) ((contrEquiv1 dot_S64x128_S128x128_S64x128_1_0_0_1_n_n 128 rfl rfl).symm k) = ix2 k c :=
    funext fun ax => Fin.ext (by
      match ax with
      | ⟨0, _⟩ => exact (dot_S64x128_S128x128_S64x128_1_0_0_1_n_n.rhsIdx_val_of_single rfl (ix2 i c) _).trans hk
      | ⟨1, _⟩ =>
        show (dot_S64x128_S128x128_S64x128_1_0_0_1_n_n.rhsIdx (ix2 i c) _ 1).val = c.val
        unfold DotDims.rhsIdx
        rw [dif_neg (show ¬(1 : Fin S128x128.rank) ∈ dot_S64x128_S128x128_S64x128_1_0_0_1_n_n.rhsBatch by decide),
          dif_pos (show (1 : Fin S128x128.rank) ∈ dot_S64x128_S128x128_S64x128_1_0_0_1_n_n.rhsNonContracting by decide)]
        rfl)
  rw [el, er]

/-- The 4096 first-layer rows times the second weight: entry (r, c) is the sum over the 128 hidden channels. -/
theorem rows_product_apply (a : FVec Ideal S4096x128 .bf16) (w : FVec Ideal S128x128 .bf16) (i : Fin 4096) (c : Fin 128) :
    matmul dot_S4096x128_S128x128_S4096x128_1_0_0_1_n_n none a w (constant S4096x128 .f32 0x00000000#32) (ix2 i c)
      = ∑ k : Fin 128, a (ix2 i k) * w (ix2 k c) := by
  show FloatOps.matmul dot_S4096x128_S128x128_S4096x128_1_0_0_1_n_n none a w (constant S4096x128 .f32 0x00000000#32) (ix2 i c) = _
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 i c) ((contrEquiv1 dot_S4096x128_S128x128_S4096x128_1_0_0_1_n_n 128 rfl rfl).symm k) = ix2 i k :=
    funext fun ax => Fin.ext (by
      match ax with
      | ⟨0, _⟩ =>
        show (dot_S4096x128_S128x128_S4096x128_1_0_0_1_n_n.lhsIdx (ix2 i c) _ 0).val = i.val
        unfold DotDims.lhsIdx
        rw [dif_neg (show ¬(0 : Fin S4096x128.rank) ∈ dot_S4096x128_S128x128_S4096x128_1_0_0_1_n_n.lhsBatch by decide),
          dif_pos (show (0 : Fin S4096x128.rank) ∈ dot_S4096x128_S128x128_S4096x128_1_0_0_1_n_n.lhsNonContracting by decide)]
        rfl
      | ⟨1, _⟩ => exact (dot_S4096x128_S128x128_S4096x128_1_0_0_1_n_n.lhsIdx_val_of_single rfl (ix2 i c) _).trans hk)
  have er : dot_S4096x128_S128x128_S4096x128_1_0_0_1_n_n.rhsIdx (ix2 i c) ((contrEquiv1 dot_S4096x128_S128x128_S4096x128_1_0_0_1_n_n 128 rfl rfl).symm k) = ix2 k c :=
    funext fun ax => Fin.ext (by
      match ax with
      | ⟨0, _⟩ => exact (dot_S4096x128_S128x128_S4096x128_1_0_0_1_n_n.rhsIdx_val_of_single rfl (ix2 i c) _).trans hk
      | ⟨1, _⟩ =>
        show (dot_S4096x128_S128x128_S4096x128_1_0_0_1_n_n.rhsIdx (ix2 i c) _ 1).val = c.val
        unfold DotDims.rhsIdx
        rw [dif_neg (show ¬(1 : Fin S128x128.rank) ∈ dot_S4096x128_S128x128_S4096x128_1_0_0_1_n_n.rhsBatch by decide),
          dif_pos (show (1 : Fin S128x128.rank) ∈ dot_S4096x128_S128x128_S4096x128_1_0_0_1_n_n.rhsNonContracting by decide)]
        rfl)
  rw [el, er]

/-! ## The payload at a row and a channel -/

/-- The stored value of one sample, at row r and channel c, is the pair network summed over the pair and its swap. -/
theorem payload_apply (v1 v3 v5 : FVec Ideal S128x128 .bf16) (v6 v7 : Vec Ideal S128 .f32) (v38 : Vec Ideal S1x64x128 .f32)
    (u : Fin 1) (r : Fin 4096) (c : Fin 128) :
    k0_pay1 v1 v3 v5 v6 v7 v38 (ix3 u r c)
      = sample (fun i k => v38 (ix3 (0 : Fin 1) i k)) (fun k d => v1 (ix2 k d)) (fun k d => v3 (ix2 k d))
          (fun k d => v5 (ix2 k d)) (fun d => v6 (ix1 d)) (fun d => v7 (ix1 d)) r c := by
  unfold k0_pay1
  simp only [add_unit_apply, flatten_pairs_apply, addf_apply]
  rw [swap_pairs_apply]
  simp only [unflatten_pairs_apply, maximumf_apply, addf_apply, flatten_pairs_apply,
    rows_product_apply, over_rows_apply, broadcast_apply, truncf_apply, rowHi_pairRow, rowLo_pairRow,
    over_second_apply, over_first_apply, over_pairs_apply, atoms_product_apply, block_rows_apply]
  rfl

end Cert.KernelIdeal.BodyValue

end
-- ==== Proof.Blocks.lean ====
/-
  What each input window's block holds at a grid point.

  The grid has 16 points; point t works on samples 2t and 2t + 1. Window 0's block at point t is those two
  samples of the atoms array. The three weight windows and the two bias windows stage whole arrays, the same
  at every point: the biases are arguments; the three weights are what the host operations before the call
  left, namely rows 0..127 and rows 128..255 of the stacked first weight and the second weight, each changed
  to the narrower float format, which on the extended reals changes nothing.
-/
import proofs.«146400_j10505490006485_2_alg».proof.Proof.Gen.KernelIdeal.Frame
import proofs.«146400_j10505490006485_2_alg».proof.Proof.Spec
import Idealize.ShloMosaic.Lib.ValueIdx
import Idealize.ShloMosaic.Lib.Pipeline.Value
import Idealize.ShloMosaic.Lib.StableHlo.Run

noncomputable section

namespace Cert.KernelIdeal.BlockValue

open Cert.KernelIdeal Cert.KernelIdeal.Gen Idealize.ShloMosaic Idealize.ShloMosaic.TcCoe Idealize.SL.Sem
open Idealize.ShloMosaic.ValueIdx Idealize.ShloMosaic.StableHlo Cert.PairNet

variable (m : (ℓ : Loc nD τ sig) → Buf (Elt Ideal) ℓ)

/-- The five argument arrays on core c. -/
abbrev argX (c : Dev nD) : S32x64x128.Idx → EReal := m ((c : Thread nD τ).loc main_arg0)
abbrev argW0 (c : Dev nD) : S256x128.Idx → EReal := m ((c : Thread nD τ).loc main_arg1)
abbrev argB0 (c : Dev nD) : S128.Idx → EReal := m ((c : Thread nD τ).loc main_arg2)
abbrev argW1 (c : Dev nD) : S128x128.Idx → EReal := m ((c : Thread nD τ).loc main_arg3)
abbrev argB1 (c : Dev nD) : S128.Idx → EReal := m ((c : Thread nD τ).loc main_arg4)

/-- Sample p of the block of point t is sample 2t + p of the batch. -/
def blockSample (t : Fin cfg0.N) (p : Fin 2) : Fin 32 :=
  ⟨2 * t.val + p.val, by have ht : t.val < 16 := Nat.lt_of_lt_of_eq t.isLt N_0
                         have := p.isLt; omega⟩

/-- The printed index maps, decided over the 16 grid points: the atoms window and the output window are at block t
    along the samples, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0)

/-! ## The arrays the host operations before the call wrote -/

/-- The first staged weight is rows 0..127 of the stacked weight. -/
theorem V_top (c : Dev nD) : (V m c main_v1 : S128x128.Idx → EReal)
    = truncf .bf16 (extractStridedSlice S128x128 ![0, 0] (argW0 m c) slices_S256x128_S128x128_0_0 : FVec Ideal S128x128 .f32) bitsLt_bf16_f32 := by
  dsimp only [Gen.V, Gen.hostOps0]; after_results

/-- The second staged weight is rows 128..255 of the stacked weight. -/
theorem V_bot (c : Dev nD) : (V m c main_v3 : S128x128.Idx → EReal)
    = truncf .bf16 (extractStridedSlice S128x128 ![128, 0] (argW0 m c) slices_S256x128_S128x128_128_0 : FVec Ideal S128x128 .f32) bitsLt_bf16_f32 := by
  dsimp only [Gen.V, Gen.hostOps0]; after_results

/-- The third staged weight is the second-layer weight. -/
theorem V_second (c : Dev nD) : (V m c main_v4 : S128x128.Idx → EReal)
    = (truncf .bf16 (argW1 m c : FVec Ideal S128x128 .f32) bitsLt_bf16_f32 : FVec Ideal S128x128 .bf16) := by
  dsimp only [Gen.V, Gen.hostOps0]; after_results

theorem V_top_apply (c : Dev nD) (k d : Fin 128) : (V m c main_v1 : S128x128.Idx → EReal) (ix2 k d) = argW0 m c (ix2 (topRow k) d) := by
  rw [V_top]
  show extractStridedSlice S128x128 ![0, 0] (argW0 m c) slices_S256x128_S128x128_0_0 (ix2 k d) = _
  exact extractStridedSlice_apply ![0, 0] (argW0 m c) slices_S256x128_S128x128_0_0 (ix2 k d) (ix2 (topRow k) d) fun a => by
    match a with
    | ⟨0, _⟩ => show k.val = 0 + k.val; omega
    | ⟨1, _⟩ => show d.val = 0 + d.val; omega

theorem V_bot_apply (c : Dev nD) (k d : Fin 128) : (V m c main_v3 : S128x128.Idx → EReal) (ix2 k d) = argW0 m c (ix2 (botRow k) d) := by
  rw [V_bot]
  show extractStridedSlice S128x128 ![128, 0] (argW0 m c) slices_S256x128_S128x128_128_0 (ix2 k d) = _
  exact extractStridedSlice_apply ![128, 0] (argW0 m c) slices_S256x128_S128x128_128_0 (ix2 k d) (ix2 (botRow k) d) fun a => by
    match a with
    | ⟨0, _⟩ => show 128 + k.val = 128 + k.val; rfl
    | ⟨1, _⟩ => show d.val = 0 + d.val; omega

theorem V_second_apply (c : Dev nD) (k d : Fin 128) : (V m c main_v4 : S128x128.Idx → EReal) (ix2 k d) = argW1 m c (ix2 k d) := by
  rw [V_second]; rfl

/-! ## The blocks -/

/-- The atoms window's block at point t: samples 2t and 2t + 1. -/
theorem atoms_block (c : Dev nD) (t : Fin cfg0.N) (p : Fin 2) (i : Fin 64) (k : Fin 128) :
    (iblk m c 0 t : Vec Ideal S2x64x128 .f32) (ix3 p i k) = argX m c (ix3 (blockSample t p) i k) := by
  obtain ⟨e0, e1, e2, -⟩ := idx_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 3) * 2 + 1 * p.val = 2 * t.val + p.val; omega
  | ⟨1, _⟩ => show win0_0.index t (1 : Fin 3) * 64 + 1 * i.val = i.val; omega
  | ⟨2, _⟩ => show win0_0.index t (2 : Fin 3) * 128 + 1 * k.val = k.val; omega

/-- The first weight window's block, at every point: the top half of the stacked weight. -/
theorem top_block (c : Dev nD) (t : Fin cfg0.N) (k d : Fin 128) :
    (iblk m c 1 t : Vec Ideal S128x128 .bf16) (ix2 k d) = argW0 m c (ix2 (topRow k) d) := by
  obtain ⟨-, -, -, e0, e1, -⟩ := idx_facts t
  refine Eq.trans ?_ (V_top_apply m c k d)
  unfold iblk
  rw [View.read_apply]
  show V m c main_v1 _ = V m c main_v1 _
  refine congrArg (V m c main_v1) (funext fun a => Fin.ext ?_)
  match a with
  | ⟨0, _⟩ => show win0_1.index t (0 : Fin 2) * 128 + 1 * k.val = k.val; omega
  | ⟨1, _⟩ => show win0_1.index t (1 : Fin 2) * 128 + 1 * d.val = d.val; omega

/-- The second weight window's block: the bottom half of the stacked weight. -/
theorem bot_block (c : Dev nD) (t : Fin cfg0.N) (k d : Fin 128) :
    (iblk m c 2 t : Vec Ideal S128x128 .bf16) (ix2 k d) = argW0 m c (ix2 (botRow k) d) := by
  obtain ⟨-, -, -, -, -, e0, e1, -⟩ := idx_facts t
  refine Eq.trans ?_ (V_bot_apply m c k d)
  unfold iblk
  rw [View.read_apply]
  show V m c main_v3 _ = V m c main_v3 _
  refine congrArg (V m c main_v3) (funext fun a => Fin.ext ?_)
  match a with
  | ⟨0, _⟩ => show win0_2.index t (0 : Fin 2) * 128 + 1 * k.val = k.val; omega
  | ⟨1, _⟩ => show win0_2.index t (1 : Fin 2) * 128 + 1 * d.val = d.val; omega

/-- The first bias window's block. -/
theorem bias0_block (c : Dev nD) (t : Fin cfg0.N) (d : Fin 128) :
    (iblk m c 3 t : Vec Ideal S128 .f32) (ix1 d) = argB0 m c (ix1 d) := by
  obtain ⟨-, -, -, -, -, -, -, e0, -⟩ := idx_facts t
  unfold iblk
  rw [View.read_apply]
  show V m c main_arg2 _ = m ((c : Thread nD τ).loc main_arg2) _
  rw [V_main_arg2]
  refine congrArg (m ((c : Thread nD τ).loc main_arg2)) (funext fun a => Fin.ext ?_)
  match a with
  | ⟨0, _⟩ => show win0_3.index t (0 : Fin 1) * 128 + 1 * d.val = d.val; omega

/-- The second weight's window block. -/
theorem second_block (c : Dev nD) (t : Fin cfg0.N) (k d : Fin 128) :
    (iblk m c 4 t : Vec Ideal S128x128 .bf16) (ix2 k d) = argW1 m c (ix2 k d) := by
  obtain ⟨-, -, -, -, -, -, -, -, e0, e1, -⟩ := idx_facts t
  refine Eq.trans ?_ (V_second_apply m c k d)
  unfold iblk
  rw [View.read_apply]
  show V m c main_v4 _ = V m c main_v4 _
  refine congrArg (V m c main_v4) (funext fun a => Fin.ext ?_)
  match a with
  | ⟨0, _⟩ => show win0_4.index t (0 : Fin 2) * 128 + 1 * k.val = k.val; omega
  | ⟨1, _⟩ => show win0_4.index t (1 : Fin 2) * 128 + 1 * d.val = d.val; omega

/-- The second bias window's block. -/
theorem bias1_block (c : Dev nD) (t : Fin cfg0.N) (d : Fin 128) :
    (iblk m c 5 t : Vec Ideal S128 .f32) (ix1 d) = argB1 m c (ix1 d) := by
  obtain ⟨-, -, -, -, -, -, -, -, -, -, e0, -⟩ := idx_facts t
  unfold iblk
  rw [View.read_apply]
  show V m c main_arg4 _ = m ((c : Thread nD τ).loc main_arg4) _
  rw [V_main_arg4]
  refine congrArg (m ((c : Thread nD τ).loc main_arg4)) (funext fun a => Fin.ext ?_)
  match a with
  | ⟨0, _⟩ => show win0_5.index t (0 : Fin 1) * 128 + 1 * d.val = d.val; omega

end Cert.KernelIdeal.BlockValue

end
-- ==== Proof.KernelValue.lean ====
/-
  From blocks to the whole output array.

  At each grid point the body stores the first sample's value into rows [0, ·, ·] of the [2, 4096, 128] output
  block and the second sample's into rows [1, ·, ·]; each store's value is the pair network of that sample's
  atoms. So the block written back at point t is block t of the pair network's output array, samples 2t and
  2t + 1. The 16 blocks cover the 32 samples, so the array after the run is the pair network's output.
-/
import proofs.«146400_j10505490006485_2_alg».proof.Proof.Gen.KernelIdeal.Value
import proofs.«146400_j10505490006485_2_alg».proof.Proof.BodyValue
import proofs.«146400_j10505490006485_2_alg».proof.Proof.Blocks

noncomputable section

namespace Cert.KernelIdeal.BlockValue

open Cert.KernelIdeal Cert.KernelIdeal.Gen Idealize.ShloMosaic Idealize.ShloMosaic.TcCoe Idealize.SL.Sem
open Idealize.ShloMosaic.ValueIdx Cert.PairNet Cert.KernelIdeal.BodyValue
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-! ## One sample's store -/

/-- The casts of the three loaded weights to their own shape change nothing. -/
theorem same_shape_a (v : Vec Ideal S128x128 .bf16) : k0_pay2 v = v := by unfold k0_pay2; exact shapeCast_self v _
theorem same_shape_b (v : Vec Ideal S128x128 .bf16) : k0_pay3 v = v := by unfold k0_pay3; exact shapeCast_self v _
theorem same_shape_c (v : Vec Ideal S128x128 .bf16) : k0_pay4 v = v := by unfold k0_pay4; exact shapeCast_self v _

/-- A store's value when the loaded weights and biases are the arguments' and the loaded atoms are sample s:
    the pair network's output for sample s. -/
theorem half_value (X : S32x64x128.Idx → EReal) (W0 : S256x128.Idx → EReal) (B0 : S128.Idx → EReal)
    (W1 : S128x128.Idx → EReal) (B1 : S128.Idx → EReal)
    (x1 x2 x4 : Vec Ideal S128x128 .bf16) (x3 x5 : Vec Ideal S128 .f32) (v38 : Vec Ideal S1x64x128 .f32) (s : Fin 32)
    (h1 : ∀ k d : Fin 128, x1 (ix2 k d) = W0 (ix2 (topRow k) d))
    (h2 : ∀ k d : Fin 128, x2 (ix2 k d) = W0 (ix2 (botRow k) d))
    (h3 : ∀ d : Fin 128, x3 (ix1 d) = B0 (ix1 d))
    (h4 : ∀ k d : Fin 128, x4 (ix2 k d) = W1 (ix2 k d))
    (h5 : ∀ d : Fin 128, x5 (ix1 d) = B1 (ix1 d))
    (hv : ∀ (i : Fin 64) (k : Fin 128), v38 (ix3 (0 : Fin 1) i k) = X (ix3 s i k))
    (u : Fin 1) (r : Fin 4096) (cc : Fin 128) :
    k0_pay1 (k0_pay2 (View.ld x1 r0_0)) (k0_pay3 (View.ld x2 r0_0)) (k0_pay4 (View.ld x4 r0_0)) (View.ld x3 r0_1)
        (View.ld x5 r0_1) v38 (ix3 u r cc)
      = outAt X W0 B0 W1 B1 s r cc := by
  rw [payload_apply, same_shape_a, same_shape_b, same_shape_c, View.ld_unit_zero zeros2, View.ld_unit_zero zeros2,
    View.ld_unit_zero zeros2, View.ld_unit_zero zeros1, View.ld_unit_zero zeros1]
  unfold outAt
  have e0 : (fun (i : Fin 64) (k : Fin 128) => v38 (ix3 (0 : Fin 1) i k)) = fun i k => X (ix3 s i k) :=
    funext fun i => funext fun k => hv i k
  have e1 : (fun (k d : Fin 128) => x1 (ix2 k d)) = fun k d => W0 (ix2 (topRow k) d) := funext fun k => funext fun d => h1 k d
  have e2 : (fun (k d : Fin 128) => x2 (ix2 k d)) = fun k d => W0 (ix2 (botRow k) d) := funext fun k => funext fun d => h2 k d
  have e3 : (fun (d : Fin 128) => x3 (ix1 d)) = fun d => B0 (ix1 d) := funext fun d => h3 d
  have e4 : (fun (k d : Fin 128) => x4 (ix2 k d)) = fun k d => W1 (ix2 k d) := funext fun k => funext fun d => h4 k d
  have e5 : (fun (d : Fin 128) => x5 (ix1 d)) = fun d => B1 (ix1 d) := funext fun d => h5 d
  rw [e0, e1, e2, e3, e4, e5]

/-! ## The block a point leaves -/

/-- The two stores of a point, as one function of the block's index: sample p of the block is sample s p of the batch. -/
theorem block_value (X : S32x64x128.Idx → EReal) (W0 : S256x128.Idx → EReal) (B0 : S128.Idx → EReal)
    (W1 : S128x128.Idx → EReal) (B1 : S128.Idx → EReal)
    (x0 : Vec Ideal S2x64x128 .f32) (x1 x2 x4 : Vec Ideal S128x128 .bf16) (x3 x5 : Vec Ideal S128 .f32) (s : Fin 2 → Fin 32)
    (h0 : ∀ (p : Fin 2) (i : Fin 64) (k : Fin 128), x0 (ix3 p i k) = X (ix3 (s p) i k))
    (h1 : ∀ k d : Fin 128, x1 (ix2 k d) = W0 (ix2 (topRow k) d))
    (h2 : ∀ k d : Fin 128, x2 (ix2 k d) = W0 (ix2 (botRow k) d))
    (h3 : ∀ d : Fin 128, x3 (ix1 d) = B0 (ix1 d))
    (h4 : ∀ k d : Fin 128, x4 (ix2 k d) = W1 (ix2 k d))
    (h5 : ∀ d : Fin 128, x5 (ix1 d) = B1 (ix1 d))
    (y : S2x4096x128.Idx) :
    out0_6 x0 x1 x2 x3 x4 x5 y = outAt X W0 B0 W1 B1 (s (y 0)) (y 1) (y 2) := by
  unfold out0_6
  refine View.canon_apply_of_pieces (Val := Elt Ideal) (S := S2x4096x128) (e := EltTy.f32)
    (fun y : S2x4096x128.Idx => outAt X W0 B0 W1 B1 (s (y 0)) (y 1) (y 2)) _ ?_ y
    (cover0_6 _ _ y)
  intro pc hpc x
  rcases List.mem_cons.mp hpc with rfl | hpc
  · -- the second sample's rows
    obtain ⟨u, r, cc, rfl⟩ : ∃ (u : Fin 1) (r : Fin 4096) (cc : Fin 128), x = ix3 u r cc := ⟨x 0, x 1, x 2, eq_ix3 x⟩
    have hu : u.val = 0 := by omega
    have he : r0_5.emb (ix3 u r cc) = ix3 (1 : Fin 2) r cc := funext fun a => Fin.ext (by
      match a with
      | ⟨0, _⟩ => show 1 + 1 * u.val = 1; omega
      | ⟨1, _⟩ => show 0 + 1 * r.val = r.val; omega
      | ⟨2, _⟩ => show 0 + 1 * cc.val = cc.val; omega)
    show k0_pay1 (k0_pay2 (View.ld x1 r0_0)) (k0_pay3 (View.ld x2 r0_0)) (k0_pay4 (View.ld x4 r0_0)) (View.ld x3 r0_1)
        (View.ld x5 r0_1) (View.ld x0 r0_4) (ix3 u r cc)
      = outAt X W0 B0 W1 B1 (s ((r0_5.emb (ix3 u r cc)) 0)) ((r0_5.emb (ix3 u r cc)) 1) ((r0_5.emb (ix3 u r cc)) 2)
    rw [he]
    refine half_value X W0 B0 W1 B1 x1 x2 x4 x3 x5 (View.ld x0 r0_4) (s 1) h1 h2 h3 h4 h5 (fun i k => ?_) u r cc
    refine Eq.trans (congrArg x0 (funext fun a => Fin.ext ?_)) (h0 1 i k)
    match a with
    | ⟨0, _⟩ => show 1 + 1 * 0 = 1; rfl
    | ⟨1, _⟩ => show 0 + 1 * i.val = i.val; omega
    | ⟨2, _⟩ => show 0 + 1 * k.val = k.val; omega
  · -- the first sample's rows
    obtain rfl := List.mem_singleton.mp hpc
    obtain ⟨u, r, cc, rfl⟩ : ∃ (u : Fin 1) (r : Fin 4096) (cc : Fin 128), x = ix3 u r cc := ⟨x 0, x 1, x 2, eq_ix3 x⟩
    have hu : u.val = 0 := by omega
    have he : r0_3.emb (ix3 u r cc) = ix3 (0 : Fin 2) r cc := funext fun a => Fin.ext (by
      match a with
      | ⟨0, _⟩ => show 0 + 1 * u.val = 0; omega
      | ⟨1, _⟩ => show 0 + 1 * r.val = r.val; omega
      | ⟨2, _⟩ => show 0 + 1 * cc.val = cc.val; omega)
    show k0_pay1 (k0_pay2 (View.ld x1 r0_0)) (k0_pay3 (View.ld x2 r0_0)) (k0_pay4 (View.ld x4 r0_0)) (View.ld x3 r0_1)
        (View.ld x5 r0_1) (View.ld x0 r0_2) (ix3 u r cc)
      = outAt X W0 B0 W1 B1 (s ((r0_3.emb (ix3 u r cc)) 0)) ((r0_3.emb (ix3 u r cc)) 1) ((r0_3.emb (ix3 u r cc)) 2)
    rw [he]
    refine half_value X W0 B0 W1 B1 x1 x2 x4 x3 x5 (View.ld x0 r0_2) (s 0) h1 h2 h3 h4 h5 (fun i k => ?_) u r cc
    refine Eq.trans (congrArg x0 (funext fun a => Fin.ext ?_)) (h0 0 i k)
    match a with
    | ⟨0, _⟩ => show 0 + 1 * 0 = 0; rfl
    | ⟨1, _⟩ => show 0 + 1 * i.val = i.val; omega
    | ⟨2, _⟩ => show 0 + 1 * k.val = k.val; omega

/-! ## The array after the run -/

/-- The array the output ends holding: the pair network's output for the argument arrays. -/
def result (c : Dev nD) : S32x4096x128.Idx → EReal :=
  out (argX m c) (argW0 m c) (argB0 m c) (argW1 m c) (argB1 m c)

/-- What point t writes back is block t of the pair network's output. -/
theorem flushed_eq (c : Dev nD) (t : Fin cfg0.N) :
    (dats m 0 c).flushed 6 t = ((cfg0.win 6).blk t).view.read (Elt Ideal) (result m c) := by
  rw [Cert.KernelIdeal.Value.flushed6]
  obtain ⟨-, -, -, -, -, -, -, -, -, -, -, e0, e1, e2⟩ := idx_facts t
  funext y
  show out0_6 (iblk m c 0 t) (iblk m c 1 t) (iblk m c 2 t) (iblk m c 3 t) (iblk m c 4 t) (iblk m c 5 t) y
    = result m c (((cfg0.win 6).blk t).view.emb y)
  refine (block_value (argX m c) (argW0 m c) (argB0 m c) (argW1 m c) (argB1 m c) (iblk m c 0 t) (iblk m c 1 t)
    (iblk m c 2 t) (iblk m c 4 t) (iblk m c 3 t) (iblk m c 5 t) (blockSample t) (atoms_block m c t) (top_block m c t)
    (bot_block m c t) (bias0_block m c t) (second_block m c t) (bias1_block m c t) y).trans ?_
  have f0 : blockSample t (y 0) = (((cfg0.win 6).blk t).view.emb y) 0 :=
    Fin.ext (by show 2 * t.val + (y 0).val = win0_6.index t (0 : Fin 3) * 2 + 1 * (y 0).val; omega)
  have f1 : y 1 = (((cfg0.win 6).blk t).view.emb y) 1 :=
    Fin.ext (by show (y 1).val = win0_6.index t (1 : Fin 3) * 4096 + 1 * (y 1).val; omega)
  have f2 : y 2 = (((cfg0.win 6).blk t).view.emb y) 2 :=
    Fin.ext (by show (y 2).val = win0_6.index t (2 : Fin 3) * 128 + 1 * (y 2).val; omega)
  exact congr (congr (congrArg (outAt (argX m c) (argW0 m c) (argB0 m c) (argW1 m c) (argB1 m c)) f0) f1) f2

/-- An index is in point t's block iff each coordinate is in the block's range on its axis. -/
theorem mem_block (t : Fin cfg0.N) (i : S32x4096x128.Idx) :
    i ∈ ((cfg0.win 6).blk t).view.set ↔ ∀ a : Fin 3, win0_6.index t a * S2x4096x128.size a ≤ (i a).val
      ∧ (i a).val < win0_6.index t a * S2x4096x128.size a + S2x4096x128.size a := by
  show i ∈ ((View.whole main_v5).slice (win0_6.rect t)).set ↔ _
  rw [View.set_slice_whole, Rect.mem_set_unit]
  exact Iff.rfl

/-- Every index of the output is in the block of the point that owns its sample. -/
theorem covered (i : S32x4096x128.Idx) :
    ∃ t : Fin cfg0.N, (cfg0.win 6).flush t = true ∧ i ∈ ((cfg0.win 6).blk t).view.set := by
  have hi0 : (i 0).val < 32 := (i 0).isLt
  have hi1 : (i 1).val < 4096 := (i 1).isLt
  have hi2 : (i 2).val < 128 := (i 2).isLt
  have hN : cfg0.N = 16 := N_0
  let t : Fin cfg0.N := ⟨(i 0).val / 2, by rw [hN]; omega⟩
  obtain ⟨-, -, -, -, -, -, -, -, -, -, -, e0, e1, e2⟩ := idx_facts t
  have ht : t.val = (i 0).val / 2 := rfl
  refine ⟨t, flush0_6 t, ?_⟩
  rw [mem_block]
  intro a
  match a with
  | ⟨0, _⟩ => show win0_6.index t (0 : Fin 3) * 2 ≤ (i 0).val ∧ (i 0).val < win0_6.index t (0 : Fin 3) * 2 + 2; omega
  | ⟨1, _⟩ => show win0_6.index t (1 : Fin 3) * 4096 ≤ (i 1).val ∧ (i 1).val < win0_6.index t (1 : Fin 3) * 4096 + 4096; omega
  | ⟨2, _⟩ => show win0_6.index t (2 : Fin 3) * 128 ≤ (i 2).val ∧ (i 2).val < win0_6.index t (2 : Fin 3) * 128 + 128; omega

/-- The output array after the run is the pair network's output. -/
theorem final (c : Dev nD) : (dats m 0 c).arrAt 6 cfg0.N = result m c :=
  (dats m 0 c).arrAt_eq_of_cover 6 (result m c) (fun t _ => flushed_eq m c t) covered

/-- The kernel's run: it terminates with the result array at the pair network's output of the arguments, which it leaves
    unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.BlockValue

end
-- ==== Proof.RefValue.lean ====
/-
  The reference computes the pair network.

  The reference tiles every sample's atoms over the pairs twice (x_i along the second pair axis, x_j along the
  first), concatenates the two tilings along the feature axis in both orders, flattens sample and pair axes to
  131072 rows, and runs the two-layer perceptron on each of the two [131072, 256] matrices; the results, reshaped
  to [32, 4096, 128], are added. At row (b * 64 + i) * 64 + j the first matrix holds [x_i, x_j] and the second
  [x_j, x_i]; a product of such a row with the stacked [256, 128] weight is the sum of its first 128 terms, which
  pair one atom with the weight's top half, and its last 128 terms, which pair the other atom with the bottom
  half. So the first branch is the network at (i, j), the second the network at (j, i).
-/
import proofs.«146400_j10505490006485_2_alg».proof.Proof.Gen.ReferenceIdeal.Read
import proofs.«146400_j10505490006485_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open Cert.PairNet

variable {α : Type}

/-- The row of sample b, pair (i, j) among the 131072 flattened rows. -/
def tripleRow (b : Fin 32) (i j : Fin 64) : Fin 131072 :=
  ⟨(b.val * 64 + i.val) * 64 + j.val, by have := b.isLt; have := i.isLt; have := j.isLt; omega⟩

/-! ## The two tilings and their concatenation -/

/-- x_i tiled along the second pair axis. -/
theorem tiled_first (x : (⟨S32x64x128, .f32⟩ : BufTy).Contents (Elt Ideal)) (b : Fin 32) (i j : Fin 64) (k : Fin 128) :
    val_main_v1 (F := Ideal) x (ix4 b i j k) = x (ix3 b i k) := by
  rw [val_main_v1_apply, val_main_v0_apply]
  exact congrArg x (funext fun a => Fin.ext (by match a with | ⟨0, _⟩ => rfl | ⟨1, _⟩ => rfl | ⟨2, _⟩ => rfl))

/-- x_j tiled along the first pair axis. -/
theorem tiled_second (x : (⟨S32x64x128, .f32⟩ : BufTy).Contents (Elt Ideal)) (b : Fin 32) (i j : Fin 64) (k : Fin 128) :
    val_main_v3 (F := Ideal) x (ix4 b i j k) = x (ix3 b j k) := by
  rw [val_main_v3_apply, val_main_v2_apply]
  exact congrArg x (funext fun a => Fin.ext (by match a with | ⟨0, _⟩ => rfl | ⟨1, _⟩ => rfl | ⟨2, _⟩ => rfl))

/-- Features 0..127 of two [32, 64, 64, 128] arrays joined along the features are the first array's. -/
theorem joined_left (u v : S32x64x64x128.Idx → α)
    (h : Shape.Concatenates [S32x64x64x128, S32x64x64x128] S32x64x64x256 3) (b : Fin 32) (i j : Fin 64) (k : Fin 128) :
    concatenate S32x64x64x256 3 [⟨S32x64x64x128, u⟩, ⟨S32x64x64x128, v⟩] h (ix4 b i j (topRow k)) = u (ix4 b i j k) :=
  concatenate_pair_apply_left 3 u v h (ix4 b i j (topRow k)) rfl (ix4 b i j k) (fun d => by
    match d with
    | ⟨0, _⟩ => rfl
    | ⟨1, _⟩ => rfl
    | ⟨2, _⟩ => rfl
    | ⟨3, _⟩ => rfl)

/-- Features 128..255 of the join are the second array's, shifted by 128. -/
theorem joined_right (u v : S32x64x64x128.Idx → α)
    (h : Shape.Concatenates [S32x64x64x128, S32x64x64x128] S32x64x64x256 3) (b : Fin 32) (i j : Fin 64) (k : Fin 128) :
    concatenate S32x64x64x256 3 [⟨S32x64x64x128, u⟩, ⟨S32x64x64x128, v⟩] h (ix4 b i j (botRow k)) = v (ix4 b i j k) :=
  concatenate_pair_apply_right 3 u v h (ix4 b i j (botRow k)) rfl rfl (ix4 b i j k) (fun d hd => by
    match d with
    | ⟨0, _⟩ => rfl
    | ⟨1, _⟩ => rfl
    | ⟨2, _⟩ => rfl
    | ⟨3, _⟩ => exact absurd rfl hd) (by show k.val + 128 = 128 + k.val; omega)

/-! ## The branch whose concatenated features are [x_i, x_j] -/

theorem unflatten_idxA (b : Fin 32) (i j : Fin 64) (q : Fin 256) :
    idx_main_v5 (ix2 (tripleRow b i j) q) = ix4 b i j q :=
  funext fun a => Fin.ext (by
    have hb := b.isLt; have hi := i.isLt; have hj := j.isLt; have hq := q.isLt
    match a with
    | ⟨0, _⟩ => show (((b.val * 64 + i.val) * 64 + j.val) * 256 + q.val) / 1048576 = b.val; omega
    | ⟨1, _⟩ => show (((b.val * 64 + i.val) * 64 + j.val) * 256 + q.val) / 16384 % 64 = i.val; omega
    | ⟨2, _⟩ => show (((b.val * 64 + i.val) * 64 + j.val) * 256 + q.val) / 256 % 64 = j.val; omega
    | ⟨3, _⟩ => show (((b.val * 64 + i.val) * 64 + j.val) * 256 + q.val) % 256 = q.val; omega)

/-- Features 0..127 of the row of pair (i, j) are x_i. -/
theorem features_topA (x : (⟨S32x64x128, .f32⟩ : BufTy).Contents (Elt Ideal)) (b : Fin 32) (i j : Fin 64) (k : Fin 128) :
    val_main_v5 (F := Ideal) x (ix2 (tripleRow b i j) (topRow k)) = x (ix3 b i k) :=
  (val_main_v5_apply x _).trans ((congrArg (val_main_v4 (F := Ideal) x) (unflatten_idxA b i j (topRow k))).trans
    ((joined_left (val_main_v1 (F := Ideal) x) (val_main_v3 (F := Ideal) x) _ b i j k).trans (tiled_first x b i j k)))

/-- Features 128..255 of the row of pair (i, j) are x_j. -/
theorem features_botA (x : (⟨S32x64x128, .f32⟩ : BufTy).Contents (Elt Ideal)) (b : Fin 32) (i j : Fin 64) (k : Fin 128) :
    val_main_v5 (F := Ideal) x (ix2 (tripleRow b i j) (botRow k)) = x (ix3 b j k) :=
  (val_main_v5_apply x _).trans ((congrArg (val_main_v4 (F := Ideal) x) (unflatten_idxA b i j (botRow k))).trans
    ((joined_right (val_main_v1 (F := Ideal) x) (val_main_v3 (F := Ideal) x) _ b i j k).trans (tiled_second x b i j k)))

/-- The first layer of this branch at the row of pair (i, j): the 256-term product splits into x_i against the top
    half of the weight and x_j against the bottom half. -/
theorem first_layerA (x : (⟨S32x64x128, .f32⟩ : BufTy).Contents (Elt Ideal)) (W0 : (⟨S256x128, .f32⟩ : BufTy).Contents (Elt Ideal)) (b0 : (⟨S128, .f32⟩ : BufTy).Contents (Elt Ideal)) (b : Fin 32) (i j : Fin 64) (d : Fin 128) :
    val_main_v12 (F := Ideal) x W0 b0 (ix2 (tripleRow b i j) d)
      = layer0 (fun i k => x (ix3 b i k)) (fun k d => W0 (ix2 (topRow k) d)) (fun k d => W0 (ix2 (botRow k) d)) (fun d => b0 (ix1 d)) i j d := by
  have hl : ∀ q : Fin 256, lidx_main_v8 (ix2 (tripleRow b i j) d) q = ix2 (tripleRow b i j) q := fun q =>
    funext fun a => Fin.ext (by match a with | ⟨0, _⟩ => rfl | ⟨1, _⟩ => rfl)
  have hr : ∀ q : Fin 256, ridx_main_v8 (ix2 (tripleRow b i j) d) q = ix2 q d := fun q =>
    funext fun a => Fin.ext (by match a with | ⟨0, _⟩ => rfl | ⟨1, _⟩ => rfl)
  have hdot : val_main_v8 (F := Ideal) x W0 (ix2 (tripleRow b i j) d)
      = (∑ k : Fin 128, x (ix3 b i k) * W0 (ix2 (topRow k) d)) + ∑ k : Fin 128, x (ix3 b j k) * W0 (ix2 (botRow k) d) := by
    rw [val_main_v8_apply, sum_halves]
    refine congrArg₂ (· + ·) (Finset.sum_congr rfl fun k _ => ?_) (Finset.sum_congr rfl fun k _ => ?_)
    · beta_reduce; rw [hl, hr, features_topA]
    · beta_reduce; rw [hl, hr, features_botA]
  have hbias : val_main_v10 (F := Ideal) b0 (ix2 (tripleRow b i j) d) = b0 (ix1 d) := by
    rw [val_main_v10_apply, val_main_v9_apply]
    exact congrArg b0 (funext fun a => Fin.ext (by match a with | ⟨0, _⟩ => rfl))
  rw [val_main_v12_apply, val_main_v11_apply, hdot, hbias, val_main_call0_v0_apply, val_main_call0_cst_apply]
  rfl

/-- The whole network of this branch at the row of pair (i, j). -/
theorem netA (x : (⟨S32x64x128, .f32⟩ : BufTy).Contents (Elt Ideal)) (W0 : (⟨S256x128, .f32⟩ : BufTy).Contents (Elt Ideal)) (b0 : (⟨S128, .f32⟩ : BufTy).Contents (Elt Ideal)) (W1 : (⟨S128x128, .f32⟩ : BufTy).Contents (Elt Ideal)) (b1 : (⟨S128, .f32⟩ : BufTy).Contents (Elt Ideal)) (b : Fin 32) (i j : Fin 64) (c : Fin 128) :
    val_main_v17 (F := Ideal) x W0 b0 W1 b1 (ix2 (tripleRow b i j) c)
      = net (fun i k => x (ix3 b i k)) (fun k d => W0 (ix2 (topRow k) d)) (fun k d => W0 (ix2 (botRow k) d)) (fun k d => W1 (ix2 k d)) (fun d => b0 (ix1 d)) (fun d => b1 (ix1 d)) i j c := by
  have hl : ∀ d : Fin 128, lidx_main_v13 (ix2 (tripleRow b i j) c) d = ix2 (tripleRow b i j) d := fun d =>
    funext fun a => Fin.ext (by match a with | ⟨0, _⟩ => rfl | ⟨1, _⟩ => rfl)
  have hr : ∀ d : Fin 128, ridx_main_v13 (ix2 (tripleRow b i j) c) d = ix2 d c := fun d =>
    funext fun a => Fin.ext (by match a with | ⟨0, _⟩ => rfl | ⟨1, _⟩ => rfl)
  have hdot : val_main_v13 (F := Ideal) x W0 b0 W1 (ix2 (tripleRow b i j) c)
      = ∑ d : Fin 128, layer0 (fun i k => x (ix3 b i k)) (fun k d => W0 (ix2 (topRow k) d)) (fun k d => W0 (ix2 (botRow k) d)) (fun d => b0 (ix1 d)) i j d * W1 (ix2 d c) := by
    rw [val_main_v13_apply]
    refine Finset.sum_congr rfl fun d _ => ?_
    rw [hl, hr, first_layerA]
  have hbias : val_main_v15 (F := Ideal) b1 (ix2 (tripleRow b i j) c) = b1 (ix1 c) := by
    rw [val_main_v15_apply, val_main_v14_apply]
    exact congrArg b1 (funext fun a => Fin.ext (by match a with | ⟨0, _⟩ => rfl))
  rw [val_main_v17_apply, val_main_v16_apply, hdot, hbias, val_main_call1_v0_apply, val_main_call1_cst_apply]
  rfl

/-! ## The branch whose concatenated features are [x_j, x_i] -/

theorem unflatten_idxB (b : Fin 32) (i j : Fin 64) (q : Fin 256) :
    idx_main_v7 (ix2 (tripleRow b i j) q) = ix4 b i j q :=
  funext fun a => Fin.ext (by
    have hb := b.isLt; have hi := i.isLt; have hj := j.isLt; have hq := q.isLt
    match a with
    | ⟨0, _⟩ => show (((b.val * 64 + i.val) * 64 + j.val) * 256 + q.val) / 1048576 = b.val; omega
    | ⟨1, _⟩ => show (((b.val * 64 + i.val) * 64 + j.val) * 256 + q.val) / 16384 % 64 = i.val; omega
    | ⟨2, _⟩ => show (((b.val * 64 + i.val) * 64 + j.val) * 256 + q.val) / 256 % 64 = j.val; omega
    | ⟨3, _⟩ => show (((b.val * 64 + i.val) * 64 + j.val) * 256 + q.val) % 256 = q.val; omega)

/-- Features 0..127 of the row of pair (i, j) are x_j. -/
theorem features_topB (x : (⟨S32x64x128, .f32⟩ : BufTy).Contents (Elt Ideal)) (b : Fin 32) (i j : Fin 64) (k : Fin 128) :
    val_main_v7 (F := Ideal) x (ix2 (tripleRow b i j) (topRow k)) = x (ix3 b j k) :=
  (val_main_v7_apply x _).trans ((congrArg (val_main_v6 (F := Ideal) x) (unflatten_idxB b i j (topRow k))).trans
    ((joined_left (val_main_v3 (F := Ideal) x) (val_main_v1 (F := Ideal) x) _ b i j k).trans (tiled_second x b i j k)))

/-- Features 128..255 of the row of pair (i, j) are x_i. -/
theorem features_botB (x : (⟨S32x64x128, .f32⟩ : BufTy).Contents (Elt Ideal)) (b : Fin 32) (i j : Fin 64) (k : Fin 128) :
    val_main_v7 (F := Ideal) x (ix2 (tripleRow b i j) (botRow k)) = x (ix3 b i k) :=
  (val_main_v7_apply x _).trans ((congrArg (val_main_v6 (F := Ideal) x) (unflatten_idxB b i j (botRow k))).trans
    ((joined_right (val_main_v3 (F := Ideal) x) (val_main_v1 (F := Ideal) x) _ b i j k).trans (tiled_first x b i j k)))

/-- The first layer of this branch at the row of pair (i, j): the 256-term product splits into x_j against the top
    half of the weight and x_i against the bottom half. -/
theorem first_layerB (x : (⟨S32x64x128, .f32⟩ : BufTy).Contents (Elt Ideal)) (W0 : (⟨S256x128, .f32⟩ : BufTy).Contents (Elt Ideal)) (b0 : (⟨S128, .f32⟩ : BufTy).Contents (Elt Ideal)) (b : Fin 32) (i j : Fin 64) (d : Fin 128) :
    val_main_v23 (F := Ideal) x W0 b0 (ix2 (tripleRow b i j) d)
      = layer0 (fun i k => x (ix3 b i k)) (fun k d => W0 (ix2 (topRow k) d)) (fun k d => W0 (ix2 (botRow k) d)) (fun d => b0 (ix1 d)) j i d := by
  have hl : ∀ q : Fin 256, lidx_main_v19 (ix2 (tripleRow b i j) d) q = ix2 (tripleRow b i j) q := fun q =>
    funext fun a => Fin.ext (by match a with | ⟨0, _⟩ => rfl | ⟨1, _⟩ => rfl)
  have hr : ∀ q : Fin 256, ridx_main_v19 (ix2 (tripleRow b i j) d) q = ix2 q d := fun q =>
    funext fun a => Fin.ext (by match a with | ⟨0, _⟩ => rfl | ⟨1, _⟩ => rfl)
  have hdot : val_main_v19 (F := Ideal) x W0 (ix2 (tripleRow b i j) d)
      = (∑ k : Fin 128, x (ix3 b j k) * W0 (ix2 (topRow k) d)) + ∑ k : Fin 128, x (ix3 b i k) * W0 (ix2 (botRow k) d) := by
    rw [val_main_v19_apply, sum_halves]
    refine congrArg₂ (· + ·) (Finset.sum_congr rfl fun k _ => ?_) (Finset.sum_congr rfl fun k _ => ?_)
    · beta_reduce; rw [hl, hr, features_topB]
    · beta_reduce; rw [hl, hr, features_botB]
  have hbias : val_main_v21 (F := Ideal) b0 (ix2 (tripleRow b i j) d) = b0 (ix1 d) := by
    rw [val_main_v21_apply, val_main_v20_apply]
    exact congrArg b0 (funext fun a => Fin.ext (by match a with | ⟨0, _⟩ => rfl))
  rw [val_main_v23_apply, val_main_v22_apply, hdot, hbias, val_main_call2_v0_apply, val_main_call2_cst_apply]
  rfl

/-- The whole network of this branch at the row of pair (i, j). -/
theorem netB (x : (⟨S32x64x128, .f32⟩ : BufTy).Contents (Elt Ideal)) (W0 : (⟨S256x128, .f32⟩ : BufTy).Contents (Elt Ideal)) (b0 : (⟨S128, .f32⟩ : BufTy).Contents (Elt Ideal)) (W1 : (⟨S128x128, .f32⟩ : BufTy).Contents (Elt Ideal)) (b1 : (⟨S128, .f32⟩ : BufTy).Contents (Elt Ideal)) (b : Fin 32) (i j : Fin 64) (c : Fin 128) :
    val_main_v28 (F := Ideal) x W0 b0 W1 b1 (ix2 (tripleRow b i j) c)
      = net (fun i k => x (ix3 b i k)) (fun k d => W0 (ix2 (topRow k) d)) (fun k d => W0 (ix2 (botRow k) d)) (fun k d => W1 (ix2 k d)) (fun d => b0 (ix1 d)) (fun d => b1 (ix1 d)) j i c := by
  have hl : ∀ d : Fin 128, lidx_main_v24 (ix2 (tripleRow b i j) c) d = ix2 (tripleRow b i j) d := fun d =>
    funext fun a => Fin.ext (by match a with | ⟨0, _⟩ => rfl | ⟨1, _⟩ => rfl)
  have hr : ∀ d : Fin 128, ridx_main_v24 (ix2 (tripleRow b i j) c) d = ix2 d c := fun d =>
    funext fun a => Fin.ext (by match a with | ⟨0, _⟩ => rfl | ⟨1, _⟩ => rfl)
  have hdot : val_main_v24 (F := Ideal) x W0 b0 W1 (ix2 (tripleRow b i j) c)
      = ∑ d : Fin 128, layer0 (fun i k => x (ix3 b i k)) (fun k d => W0 (ix2 (topRow k) d)) (fun k d => W0 (ix2 (botRow k) d)) (fun d => b0 (ix1 d)) j i d * W1 (ix2 d c) := by
    rw [val_main_v24_apply]
    refine Finset.sum_congr rfl fun d _ => ?_
    rw [hl, hr, first_layerB]
  have hbias : val_main_v26 (F := Ideal) b1 (ix2 (tripleRow b i j) c) = b1 (ix1 c) := by
    rw [val_main_v26_apply, val_main_v25_apply]
    exact congrArg b1 (funext fun a => Fin.ext (by match a with | ⟨0, _⟩ => rfl))
  rw [val_main_v28_apply, val_main_v27_apply, hdot, hbias, val_main_call3_v0_apply, val_main_call3_cst_apply]
  rfl

/-! ## The result -/

/-- Row r of sample b among the flattened rows is the row of pair (r / 64, r % 64). -/
theorem sample_row (b : Fin 32) (r : Fin 4096) (c : Fin 128) :
    idx_main_v18 (ix3 b r c) = ix2 (tripleRow b (rowHi r) (rowLo r)) c :=
  funext fun a => Fin.ext (by
    have hb := b.isLt; have hr := r.isLt; have hc := c.isLt
    match a with
    | ⟨0, _⟩ => show ((b.val * 4096 + r.val) * 128 + c.val) / 128 = (b.val * 64 + r.val / 64) * 64 + r.val % 64; omega
    | ⟨1, _⟩ => show ((b.val * 4096 + r.val) * 128 + c.val) % 128 = c.val; omega)

theorem sample_row' (b : Fin 32) (r : Fin 4096) (c : Fin 128) :
    idx_main_v29 (ix3 b r c) = ix2 (tripleRow b (rowHi r) (rowLo r)) c :=
  funext fun a => Fin.ext (by
    have hb := b.isLt; have hr := r.isLt; have hc := c.isLt
    match a with
    | ⟨0, _⟩ => show ((b.val * 4096 + r.val) * 128 + c.val) / 128 = (b.val * 64 + r.val / 64) * 64 + r.val % 64; omega
    | ⟨1, _⟩ => show ((b.val * 4096 + r.val) * 128 + c.val) % 128 = c.val; omega)

/-- The reference's result, as a function of its arguments, is the pair network's output array. -/
theorem result_eq (x : (⟨S32x64x128, .f32⟩ : BufTy).Contents (Elt Ideal)) (W0 : (⟨S256x128, .f32⟩ : BufTy).Contents (Elt Ideal)) (b0 : (⟨S128, .f32⟩ : BufTy).Contents (Elt Ideal)) (W1 : (⟨S128x128, .f32⟩ : BufTy).Contents (Elt Ideal)) (b1 : (⟨S128, .f32⟩ : BufTy).Contents (Elt Ideal)) :
    val_main_v30 (F := Ideal) x W0 b0 W1 b1 = out x W0 b0 W1 b1 := by
  funext y
  obtain ⟨b, r, c, rfl⟩ : ∃ (b : Fin 32) (r : Fin 4096) (c : Fin 128), y = ix3 b r c := ⟨y 0, y 1, y 2, eq_ix3 y⟩
  rw [val_main_v30_apply, val_main_v18_apply, val_main_v29_apply, sample_row, sample_row', netA, netB]
  rfl

end Cert.ReferenceIdeal.RefValue

end
-- ==== Proof.lean ====
/-
  The pair network: a Pallas kernel against its jnp reference, equal on the extended reals.

  For each of 32 samples of 64 atoms with 128 features, both programs run a two-layer perceptron on every ordered
  pair of atoms' concatenated features, once as [x_i, x_j] and once as [x_j, x_i], and add the two results.

  The reference does this literally, on two [131072, 256] matrices. The kernel uses two facts. The first layer is
  linear in the concatenation, so its 256-term products split into x_i against the top half of the stacked weight
  plus x_j against the bottom half: two [64, 128] products per sample instead of one per pair. And the swapped pair's
  first layer is the unswapped one with i and j exchanged, so the second branch is the first branch transposed in
  the two pair axes. The only algebra is splitting a sum of 256 terms into its two halves, which holds in any
  commutative monoid: no finiteness of the inputs is used.

  Proof/Spec.lean states the result as one function of the five argument arrays. Proof/RefValue.lean shows the
  reference's run computes it; Proof/BodyLayout.lean and Proof/BodyValue.lean show one sample's half of the kernel
  body computes it; Proof/Blocks.lean reads the blocks the pipeline hands the body at each of the 16 grid points
  (two samples per point; the three weights as the host operations before the call left them); Proof/KernelValue.lean
  puts the 16 written-back blocks together. The frames of the two kernel programs are the generated ones; the
  reference's frame is its run with the result dropped. The idealization rewrote nothing, so its conjunct is trivial.
-/
import proofs.«146400_j10505490006485_2_alg».proof.Defs
import proofs.«146400_j10505490006485_2_alg».proof.Proof.Gen.Kernel
import proofs.«146400_j10505490006485_2_alg».proof.Proof.Gen.Kernel.Skeleton
import proofs.«146400_j10505490006485_2_alg».proof.Proof.Gen.Kernel.Launch
import proofs.«146400_j10505490006485_2_alg».proof.Proof.Gen.Kernel.Points
import proofs.«146400_j10505490006485_2_alg».proof.Proof.Gen.Kernel.Frame
import proofs.«146400_j10505490006485_2_alg».proof.Proof.Gen.KernelIdeal
import proofs.«146400_j10505490006485_2_alg».proof.Proof.Gen.KernelIdeal.Skeleton
import proofs.«146400_j10505490006485_2_alg».proof.Proof.Gen.KernelIdeal.Launch
import proofs.«146400_j10505490006485_2_alg».proof.Proof.Gen.KernelIdeal.Points
import proofs.«146400_j10505490006485_2_alg».proof.Proof.Gen.KernelIdeal.Frame
import proofs.«146400_j10505490006485_2_alg».proof.Proof.Gen.ReferenceIdeal
import proofs.«146400_j10505490006485_2_alg».proof.Proof.Gen.Pre_finite_inputs
import proofs.«146400_j10505490006485_2_alg».proof.Proof.Gen.KernelIdeal.Value
import proofs.«146400_j10505490006485_2_alg».proof.Proof.Gen.ReferenceIdeal.Run
import proofs.«146400_j10505490006485_2_alg».proof.Proof.Gen.ReferenceIdeal.Read
import proofs.«146400_j10505490006485_2_alg».proof.Proof.KernelValue
import proofs.«146400_j10505490006485_2_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs, and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories that agree on the five arguments, the kernel's result array and the
    reference's are both the pair network's output of those arguments. -/
theorem algebraic : Cert.algebraic_KernelIdeal_ReferenceIdeal := by
  intro m ρ m' ρ' _ hagree
  refine ⟨fun c => Cert.KernelIdeal.BlockValue.result m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
